-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x128x512 : Shape := ⟨4, ![32, 8, 128, 512]⟩
abbrev S32x8x512x512 : Shape := ⟨4, ![32, 8, 512, 512]⟩
abbrev S_ : Shape := ⟨0, ![]⟩

class Facts : Prop where
  bcast_S_S32x8x128x512 : S_.BroadcastsInDim S32x8x128x512 (![] : Fin 0 → Fin S32x8x128x512.rank)
  reducesTo_S32x8x128x512_S_d0_1_2_3 : S32x8x128x512.ReducesTo [0, 1, 2, 3] S_
  h_S_ : 0 < S_.numel
  bcast_S_S32x8x512x512 : S_.BroadcastsInDim S32x8x512x512 (![] : Fin 0 → Fin S32x8x512x512.rank)
  reducesTo_S32x8x512x512_S_d0_1_2_3 : S32x8x512x512.ReducesTo [0, 1, 2, 3] S_

variable [Facts]

def fn {F : FTy → Type} [FloatOps F] (main_arg0 : FVec F S32x8x128x512 .f32) (main_arg1 : FVec F S32x8x512x512 .f32) : IVec S_ 1 :=
  let main_v0 : FVec F S32x8x128x512 .f32 := Host.absf main_arg0
  let main_cst : FVec F S_ .f32 := constant S_ .f32 0x7F800000#32
  let main_v1 : FVec F S32x8x128x512 .f32 := broadcastInDim S32x8x128x512 ![] bcast_S_S32x8x128x512 main_cst
  let main_v2 : IVec S32x8x128x512 1 := cmpf .olt main_v0 main_v1
  let main_c : IVec S_ 1 := constantI S_ 1 1#1
  let main_v3 : IVec S_ 1 := (fun x v => Host.reduce IntOp.andi x v reducesTo_S32x8x128x512_S_d0_1_2_3 h_S_) main_v2 main_c
  let main_v4 : FVec F S32x8x512x512 .f32 := Host.absf main_arg1
  let main_cst_0 : FVec F S_ .f32 := constant S_ .f32 0x7F800000#32
  let main_v5 : FVec F S32x8x512x512 .f32 := broadcastInDim S32x8x512x512 ![] bcast_S_S32x8x512x512 main_cst_0
  let main_v6 : IVec S32x8x512x512 1 := cmpf .olt main_v4 main_v5
  let main_c_1 : IVec S_ 1 := constantI S_ 1 1#1
  let main_v7 : IVec S_ 1 := (fun x v => Host.reduce IntOp.andi x v reducesTo_S32x8x512x512_S_d0_1_2_3 h_S_) main_v6 main_c_1
  let main_v8 : IVec S_ 1 := andi main_v3 main_v7
  main_v8
-- ==== Kernel.lean ====
abbrev S32x8x128x512 : Shape := ⟨4, ![32, 8, 128, 512]⟩
abbrev S32x8x512x512 : Shape := ⟨4, ![32, 8, 512, 512]⟩
abbrev S1x1x128x512 : Shape := ⟨4, ![1, 1, 128, 512]⟩
abbrev S1x1x512x512 : Shape := ⟨4, ![1, 1, 512, 512]⟩
abbrev S128x512 : Shape := ⟨2, ![128, 512]⟩
abbrev S512x512 : Shape := ⟨2, ![512, 512]⟩
abbrev S128 : Shape := ⟨1, ![128]⟩
abbrev S128x1 : Shape := ⟨2, ![128, 1]⟩
abbrev S512 : Shape := ⟨1, ![512]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S32x8x128x512, .f32⟩
  | .hbm, ⟨1, _⟩ => ⟨S32x8x512x512, .f32⟩
  | .hbm, ⟨2, _⟩ => ⟨S32x8x128x512, .f32⟩
  | .local _ .vmem, ⟨0, _⟩ => ⟨S1x1x128x512, .f32⟩
  | .local _ .vmem, ⟨1, _⟩ => ⟨S1x1x128x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x128x512, .f32⟩
  | .local _ .vmem, ⟨5, _⟩ => ⟨S1x1x128x512, .f32⟩
  | _, _ => ⟨S32x8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1x128x512_S1x1x128x512_0_0_0_0 : ∀ a, (![0, 0, 0, 0] : Fin 4 → Nat) a + S1x1x128x512.size a ≤ S1x1x128x512.size a
  h_S1x1x128x512 : 0 < S1x1x128x512.numel
  shapeCasts_S1x1x128x512_S128x512 : S1x1x128x512.ShapeCasts S128x512
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  reduces_S128x512_S128 : S128x512.Reduces [1] S128
  shapeCasts_S128_S128x1 : S128.ShapeCasts S128x1
  reduces_S512x512_S512 : S512x512.Reduces [0] S512
  shapeCasts_S512_S1x512 : S512.ShapeCasts S1x512
  broadcasts_S128x1_S128x512 : S128x1.Broadcasts S128x512
  bitsLt_bf16_f32 : FTy.bits .bf16 < FTy.bits .f32
  broadcasts_S1x512_S512x512 : S1x512.Broadcasts S512x512
  broadcasts_S1x512_S128x512 : S1x512.Broadcasts S128x512
  shapeCasts_S128x512_S1x1x128x512 : S128x512.ShapeCasts S1x1x128x512
  dot_S128x512_S512x512_S128x512_1_0_0_1_n_n_wf : DotDims.WF S128x512 S512x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x512.size a ≤ S32x8x128x512.size a
  hwx0_0 : ∀ i : grid0.Coords, EltTy.bits .f32 = 32 ∨ (Rect.block (s := S32x8x128x512) S1x1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S32x8x512x512.size a
  hwx0_1 : ∀ i : grid0.Coords, EltTy.bits .f32 = 32 ∨ (Rect.block (s := S32x8x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x512.size a ≤ S32x8x128x512.size a
  hwx0_2 : ∀ i : grid0.Coords, EltTy.bits .f32 = 32 ∨ (Rect.block (s := S32x8x128x512) S1x1x128x512.size (cc0_transform_2 i) (hinb0_2 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf

abbrev win0_0 : Pipeline.Window sig grid0 :=
  Pipeline.Window.ofSpec (Memref.whole main_arg0) S1x1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x8x128x512 : Shape := ⟨4, ![32, 8, 128, 512]⟩
abbrev S32x8x512x512 : Shape := ⟨4, ![32, 8, 512, 512]⟩
abbrev S_ : Shape := ⟨0, ![]⟩
abbrev S32x8x512 : Shape := ⟨3, ![32, 8, 512]⟩
abbrev S32x8x1x512 : Shape := ⟨4, ![32, 8, 1, 512]⟩
abbrev S32x8x128 : Shape := ⟨3, ![32, 8, 128]⟩
abbrev S32x8x128x1 : Shape := ⟨4, ![32, 8, 128, 1]⟩

abbrev nBuf : Space → Nat
  | .hbm => 35
  | .vmem => 0
  | .smem => 0
  | _ => 0

abbrev bufTy : (tb : Table) → Fin (tcTables nBuf tb) → BufTy
  | .hbm, ⟨0, _⟩ => ⟨S32x8x128x512, .f32⟩
  | .hbm, ⟨1, _⟩ => ⟨S32x8x512x512, .f32⟩
  | .hbm, ⟨2, _⟩ => ⟨S_, .f32⟩
  | .hbm, ⟨3, _⟩ => ⟨S32x8x512, .f32⟩
  | .hbm, ⟨4, _⟩ => ⟨S_, .f32⟩
  | .hbm, ⟨5, _⟩ => ⟨S32x8x512, .f32⟩
  | .hbm, ⟨6, _⟩ => ⟨S32x8x512, .f32⟩
  | .hbm, ⟨7, _⟩ => ⟨S32x8x1x512, .f32⟩
  | .hbm, ⟨8, _⟩ => ⟨S32x8x512x512, .f32⟩
  | .hbm, ⟨9, _⟩ => ⟨S32x8x512x512, .f32⟩
  | .hbm, ⟨10, _⟩ => ⟨S32x8x512x512, .f32⟩
  | .hbm, ⟨11, _⟩ => ⟨S_, .f32⟩
  | .hbm, ⟨12, _⟩ => ⟨S32x8x512, .f32⟩
  | .hbm, ⟨13, _⟩ => ⟨S32x8x1x512, .f32⟩
  | .hbm, ⟨14, _⟩ => ⟨S32x8x1x512, .f32⟩
  | .hbm, ⟨15, _⟩ => ⟨S32x8x512x512, .f32⟩
  | .hbm, ⟨16, _⟩ => ⟨S32x8x512x512, .f32⟩
  | .hbm, ⟨17, _⟩ => ⟨S_, .f32⟩
  | .hbm, ⟨18, _⟩ => ⟨S32x8x128, .f32⟩
  | .hbm, ⟨19, _⟩ => ⟨S32x8x128x1, .f32⟩
  | .hbm, ⟨20, _⟩ => ⟨S_, .f32⟩
  | .hbm, ⟨21, _⟩ => ⟨S32x8x512, .f32⟩
  | .hbm, ⟨22, _⟩ => ⟨S32x8x1x512, .f32⟩
  | .hbm, ⟨23, _⟩ => ⟨S32x8x128x512, .f32⟩
  | .hbm, ⟨24, _⟩ => ⟨S32x8x128x512, .f32⟩
  | .hbm, ⟨25, _⟩ => ⟨S32x8x128x512, .f32⟩
  | .hbm, ⟨26, _⟩ => ⟨S32x8x512x512, .f32⟩
  | .hbm, ⟨27, _⟩ => ⟨S32x8x512x512, .f32⟩
  | .hbm, ⟨28, _⟩ => ⟨S32x8x512x512, .f32⟩
  | .hbm, ⟨29, _⟩ => ⟨S32x8x128x512, .f32⟩
  | .hbm, ⟨30, _⟩ => ⟨S32x8x128x512, .f32⟩
  | .hbm, ⟨31, _⟩ => ⟨S32x8x128x512, .f32⟩
  | .hbm, ⟨32, _⟩ => ⟨S32x8x128x512, .f32⟩
  | .hbm, ⟨33, _⟩ => ⟨S32x8x128x512, .f32⟩
  | .hbm, ⟨34, _⟩ => ⟨S32x8x128x512, .f32⟩
  | _, _ => ⟨S32x8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]

class Facts₀ : Prop where
  reducesTo_S32x8x512x512_S32x8x512_d2 : S32x8x512x512.ReducesTo [2] S32x8x512
  h_S_ : 0 < S_.numel
  bcast_S_S32x8x512 : S_.BroadcastsInDim S32x8x512 (![] : Fin 0 → Fin S32x8x512.rank)
  bcast_S32x8x512_S32x8x1x512_0_1_3 : S32x8x512.BroadcastsInDim S32x8x1x512 (![0, 1, 3] : Fin 3 → Fin S32x8x1x512.rank)
  bcast_S32x8x1x512_S32x8x512x512_0_1_2_3 : S32x8x1x512.BroadcastsInDim S32x8x512x512 (![0, 1, 2, 3] : Fin 4 → Fin S32x8x512x512.rank)
  reducesTo_S32x8x128x512_S32x8x128_d3 : S32x8x128x512.ReducesTo [3] S32x8x128
  bcast_S32x8x128_S32x8x128x1_0_1_2 : S32x8x128.BroadcastsInDim S32x8x128x1 (![0, 1, 2] : Fin 3 → Fin S32x8x128x1.rank)
  bcast_S32x8x128x1_S32x8x128x512_0_1_2_3 : S32x8x128x1.BroadcastsInDim S32x8x128x512 (![0, 1, 2, 3] : Fin 4 → Fin S32x8x128x512.rank)
  bcast_S32x8x1x512_S32x8x128x512_0_1_2_3 : S32x8x1x512.BroadcastsInDim S32x8x128x512 (![0, 1, 2, 3] : Fin 4 → Fin S32x8x128x512.rank)
  dot_S32x8x128x512_S32x8x512x512_S32x8x128x512_3_2_2_3_01_01_wf : DotDims.WF S32x8x128x512 S32x8x512x512 S32x8x128x512 [3] [2] [2] [3] [0, 1] [0, 1]

variable [Facts₀]

def dot_S32x8x128x512_S32x8x512x512_S32x8x128x512_3_2_2_3_01_01 : DotDims S32x8x128x512 S32x8x512x512 S32x8x128x512 where
  lhsContracting := [3]
  rhsContracting := [2]
  lhsNonContracting := [2]
  rhsNonContracting := [3]
  lhsBatch := [0, 1]
  rhsBatch := [0, 1]
  wf := dot_S32x8x128x512_S32x8x512x512_S32x8x128x512_3_2_2_3_01_01_wf

class Facts : Prop extends Facts₀ where

variable [Facts]
-- ==== Proof.LogSpace.lean ====
/-
  The log-space matrix product, entry by entry, in two arrangements.

  Fix a finite nonempty index set and two families x, a of extended reals (a row of the left operand and a column
  of the right one). Write max x for the largest entry of x, and for a the same.

  The first arrangement (`entryShifted`) takes the logarithm of the sum of exp (a n - max a) once, adds max a back to
  it, and returns  (max x + max a) - (log (sum of exp (a n - max a)) + max a) + log (sum of exp (x n - max x) * exp (a n - max a)).

  The second arrangement (`entryNormalized`) first normalizes the column, w n = (a n - max a) - log (sum of exp (a n - max a)),
  and then returns  (max x + max w) + log (sum of exp (x n - max x) * exp (w n - max w)).

  On REAL families both are the real number  max x - log (sum of exp (a n - max a)) + log (sum of exp (x n - max x) * exp (a n - max a)):
  the largest entry of w is -log (sum …), since the largest entry of a n - max a is 0, and therefore w n - max w = a n - max a.
  Finiteness is used throughout: subtraction and cancellation are not valid at the infinities.
-/
import Idealize.ShloMosaic.PureOps.Ideal

noncomputable section

namespace Cert.LogSpace

open Idealize.ShloMosaic
open scoped BigOperators

variable {ι : Type} [Fintype ι]

/-- `m` is the largest value the real family `f` takes: an upper bound that is attained. -/
def IsMaxOf (f : ι → ℝ) (m : ℝ) : Prop := (∀ n, f n ≤ m) ∧ ∃ n, f n = m

/-- A real family over a nonempty finite index set has a largest value. -/
theorem exists_isMaxOf (hne : (Finset.univ : Finset ι).Nonempty) (f : ι → ℝ) : ∃ m, IsMaxOf f m := by
  obtain ⟨n, -, hn⟩ := Finset.exists_max_image Finset.univ f hne
  exact ⟨f n, fun k => hn k (Finset.mem_univ k), n, rfl⟩

/-- Subtracting a constant from every entry subtracts it from the largest value. -/
theorem IsMaxOf.sub_const {f : ι → ℝ} {m : ℝ} (h : IsMaxOf f m) (c : ℝ) : IsMaxOf (fun n => f n - c) (m - c) :=
  ⟨fun n => sub_le_sub_right (h.1 n) c, h.2.imp fun k hn => by show f k - c = m - c; rw [hn]⟩

/-- The fold of `max` from the bottom element over a real family, read in the extended reals, is its largest value. -/
theorem fold_max_coe {f : ι → ℝ} {m : ℝ} (h : IsMaxOf f m) :
    (Finset.univ : Finset ι).fold max (⊥ : EReal) (fun n => (f n : EReal)) = (m : EReal) := by
  apply le_antisymm
  · rw [Finset.fold_max_le]
    exact ⟨bot_le, fun n _ => EReal.coe_le_coe_iff.2 (h.1 n)⟩
  · obtain ⟨n, hn⟩ := h.2
    rw [← hn]
    exact (Finset.le_fold_max _).2 (Or.inr ⟨n, Finset.mem_univ n, le_rfl⟩)

/-- A finite sum of real numbers, read in the extended reals, is the real sum. -/
theorem sum_coe (s : Finset ι) (f : ι → ℝ) : (∑ n ∈ s, (f n : EReal)) = ((∑ n ∈ s, f n : ℝ) : EReal) := by
  classical
  induction s using Finset.induction_on with
  | empty => simp
  | insert a s ha ih => rw [Finset.sum_insert ha, Finset.sum_insert ha, ih, EReal.coe_add]

/-- The logarithm of a positive real number, read in the extended reals, is its real logarithm. -/
theorem log_coe_of_pos {r : ℝ} (h : 0 < r) : Ideal.log (r : EReal) = (Real.log r : EReal) := by
  show (if r ≤ 0 then (⊥ : EReal) else (Real.log r : EReal)) = _
  rw [if_neg (not_le.2 h)]

/-- The exponential of a difference of two real numbers, read in the extended reals. -/
theorem exp_coe_sub (r q : ℝ) : Ideal.exp ((r : EReal) - (q : EReal)) = (Real.exp (r - q) : EReal) := by
  rw [← EReal.coe_sub]; rfl

/-- The first arrangement: the logarithm of the column's shifted exponential sum is taken once and the shift added back. -/
def entryShifted (x a : ι → EReal) : EReal :=
  (Finset.univ.fold max ⊥ x + Finset.univ.fold max ⊥ a
      - (Ideal.log (∑ n, Ideal.exp (a n - Finset.univ.fold max ⊥ a)) + Finset.univ.fold max ⊥ a))
    + Ideal.log (∑ n, Ideal.exp (x n - Finset.univ.fold max ⊥ x) * Ideal.exp (a n - Finset.univ.fold max ⊥ a))

/-- The normalized column: each entry less the column's largest, less the logarithm of the shifted exponential sum. -/
def normalizedCol (a : ι → EReal) (n : ι) : EReal :=
  (a n - Finset.univ.fold max ⊥ a) - Ideal.log (∑ k, Ideal.exp (a k - Finset.univ.fold max ⊥ a))

/-- The second arrangement: the log-space product of the row with the normalized column. -/
def entryNormalized (x a : ι → EReal) : EReal :=
  (Finset.univ.fold max ⊥ x + Finset.univ.fold max ⊥ (normalizedCol a))
    + Ideal.log (∑ n, Ideal.exp (x n - Finset.univ.fold max ⊥ x)
        * Ideal.exp (normalizedCol a n - Finset.univ.fold max ⊥ (normalizedCol a)))

/-- The common real value of the two arrangements, given the two largest values. -/
def entryReal (X A : ι → ℝ) (mx ma : ℝ) : ℝ :=
  mx - Real.log (∑ n, Real.exp (A n - ma)) + Real.log (∑ n, Real.exp (X n - mx) * Real.exp (A n - ma))

theorem sum_exp_pos (hne : (Finset.univ : Finset ι).Nonempty) (f : ι → ℝ) : 0 < ∑ n, Real.exp (f n) :=
  Finset.sum_pos (fun n _ => Real.exp_pos _) hne

theorem sum_exp_mul_exp_pos (hne : (Finset.univ : Finset ι).Nonempty) (f g : ι → ℝ) :
    0 < ∑ n, Real.exp (f n) * Real.exp (g n) :=
  Finset.sum_pos (fun n _ => mul_pos (Real.exp_pos _) (Real.exp_pos _)) hne

/-- On real families the first arrangement is the common real value. -/
theorem entryShifted_coe (hne : (Finset.univ : Finset ι).Nonempty) (X A : ι → ℝ) {mx ma : ℝ}
    (hx : IsMaxOf X mx) (ha : IsMaxOf A ma) :
    entryShifted (fun n => (X n : EReal)) (fun n => (A n : EReal)) = ((entryReal X A mx ma : ℝ) : EReal) := by
  unfold entryShifted entryReal
  rw [fold_max_coe hx, fold_max_coe ha]
  simp only [exp_coe_sub, ← EReal.coe_mul, sum_coe]
  rw [log_coe_of_pos (sum_exp_pos hne _), log_coe_of_pos (sum_exp_mul_exp_pos hne _ _)]
  rw [← EReal.coe_add, ← EReal.coe_add, ← EReal.coe_sub, ← EReal.coe_add]
  exact congrArg _ (by ring)

/-- On a real column the normalized column is real, entry by entry. -/
theorem normalizedCol_coe (hne : (Finset.univ : Finset ι).Nonempty) (A : ι → ℝ) {ma : ℝ} (ha : IsMaxOf A ma) (n : ι) :
    normalizedCol (fun k => (A k : EReal)) n
      = (((A n - ma) - Real.log (∑ k, Real.exp (A k - ma)) : ℝ) : EReal) := by
  unfold normalizedCol
  rw [fold_max_coe ha]
  simp only [exp_coe_sub, sum_coe]
  rw [log_coe_of_pos (sum_exp_pos hne _), ← EReal.coe_sub, ← EReal.coe_sub]

/-- On real families the second arrangement is the same real value: the normalized column's largest entry is minus
    the logarithm of the shifted exponential sum, so shifting it back restores a n - max a. -/
theorem entryNormalized_coe (hne : (Finset.univ : Finset ι).Nonempty) (X A : ι → ℝ) {mx ma : ℝ}
    (hx : IsMaxOf X mx) (ha : IsMaxOf A ma) :
    entryNormalized (fun n => (X n : EReal)) (fun n => (A n : EReal)) = ((entryReal X A mx ma : ℝ) : EReal) := by
  have hw : IsMaxOf (fun n => (A n - ma) - Real.log (∑ k, Real.exp (A k - ma)))
      (0 - Real.log (∑ k, Real.exp (A k - ma))) := by
    have h0 : IsMaxOf (fun n => A n - ma) 0 := by simpa using ha.sub_const ma
    exact h0.sub_const _
  have hcol : normalizedCol (fun k => (A k : EReal))
      = fun n => (((A n - ma) - Real.log (∑ k, Real.exp (A k - ma)) : ℝ) : EReal) :=
    funext fun n => normalizedCol_coe hne A ha n
  unfold entryNormalized entryReal
  rw [hcol, fold_max_coe hx, fold_max_coe hw]
  simp only [exp_coe_sub, ← EReal.coe_mul, sum_coe]
  have hback : ∀ n, (A n - ma) - Real.log (∑ k, Real.exp (A k - ma)) - (0 - Real.log (∑ k, Real.exp (A k - ma)))
      = A n - ma := fun n => by ring
  simp only [hback]
  rw [log_coe_of_pos (sum_exp_mul_exp_pos hne _ _), ← EReal.coe_add, ← EReal.coe_add]
  exact congrArg _ (by ring)

/-- On real families the two arrangements agree. -/
theorem entryNormalized_eq_entryShifted (hne : (Finset.univ : Finset ι).Nonempty) (x a : ι → EReal)
    (hx : ∀ n, ∃ r : ℝ, x n = (r : EReal)) (ha : ∀ n, ∃ r : ℝ, a n = (r : EReal)) :
    entryNormalized x a = entryShifted x a := by
  choose X hX using hx
  choose A hA using ha
  obtain ⟨mx, hmx⟩ := exists_isMaxOf hne X
  obtain ⟨ma, hma⟩ := exists_isMaxOf hne A
  have ex : x = fun n => (X n : EReal) := funext hX
  have ea : a = fun n => (A n : EReal) := funext hA
  rw [ex, ea, entryNormalized_coe hne X A hmx hma, entryShifted_coe hne X A hmx hma]

end Cert.LogSpace

end
-- ==== Proof.LibColRow.lean ====
/-
  A vector laid along a column or a row of a matrix, read at an index: the row-major recast [a] → [a, 1] at (i, u) is
  the vector's entry i; a vector broadcast down a column [n] → [n, 1] and then across the lanes [n, 1] → [n, k] reads
  its entry r at (r, q); a vector broadcast along a row [k] → [1, k] and then down the rows [1, k] → [n, k] reads its
  entry q at (r, q). General in the extents and in the element type.
-/
import Idealize.ShloMosaic.Lib.ValueIdx
import Idealize.ShloMosaic.Lib.Pipeline.Value

namespace Cert.LibColRow

open Idealize.ShloMosaic Idealize.ShloMosaic.ValueIdx

variable {α : Type}

/-- A vector recast as a column reads, at (i, u), its entry i, whatever the unit coordinate u. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector laid down a column and then across the lanes reads, at (r, q), its entry r. -/
theorem bcast_col_apply {n k : Nat} (hn : n ≠ 1)
    (h1 : (⟨1, ![n]⟩ : Shape).BroadcastsInDim ⟨2, ![n, 1]⟩ (![0] : Fin 1 → Fin 2))
    (h2 : (⟨2, ![n, 1]⟩ : Shape).BroadcastsInDim ⟨2, ![n, k]⟩ (![0, 1] : Fin 2 → Fin 2))
    (v : (⟨1, ![n]⟩ : Shape).Idx → α) (r : Fin n) (q : Fin k) :
    broadcastInDim ⟨2, ![n, k]⟩ ![0, 1] h2 (broadcastInDim ⟨2, ![n, 1]⟩ ![0] h1 v) (ix2 r q) = v (ix1 r) := by
  rw [broadcastInDim_apply ![0, 1] h2 _ (ix2 r q) (ix2 r 0) (fun a => by
    match a with
    | ⟨0, _⟩ => exact (if_neg hn).symm
    | ⟨1, _⟩ => exact (if_pos rfl).symm)]
  exact broadcastInDim_apply ![0] h1 v (ix2 r 0) (ix1 r) (fun a => by
    match a with
    | ⟨0, _⟩ => exact (if_neg hn).symm)

/-- A vector laid along a row and then down the rows reads, at (r, q), its entry q. -/
theorem bcast_row_apply {n k : Nat} (hk : k ≠ 1)
    (h1 : (⟨1, ![k]⟩ : Shape).BroadcastsInDim ⟨2, ![1, k]⟩ (![1] : Fin 1 → Fin 2))
    (h2 : (⟨2, ![1, k]⟩ : Shape).BroadcastsInDim ⟨2, ![n, k]⟩ (![0, 1] : Fin 2 → Fin 2))
    (v : (⟨1, ![k]⟩ : Shape).Idx → α) (r : Fin n) (q : Fin k) :
    broadcastInDim ⟨2, ![n, k]⟩ ![0, 1] h2 (broadcastInDim ⟨2, ![1, k]⟩ ![1] h1 v) (ix2 r q) = v (ix1 q) := by
  rw [broadcastInDim_apply ![0, 1] h2 _ (ix2 r q) (ix2 0 q) (fun a => by
    match a with
    | ⟨0, _⟩ => exact (if_pos rfl).symm
    | ⟨1, _⟩ => exact (if_neg hk).symm)]
  exact broadcastInDim_apply ![1] h1 v (ix2 0 q) (ix1 q) (fun a => by
    match a with
    | ⟨0, _⟩ => exact (if_neg hk).symm)

end Cert.LibColRow
-- ==== Proof.LibAxisReads.lean ====
/-
  Reductions of a matrix along one axis, and a column laid across the lanes, read at an index — general in the
  extents.
  At the exact values a maximum reduction of an [a, b] array along its second axis, started from the pattern of -∞, is at
  row p the fold of `max` from the bottom element over the row's entries (`rowMax_apply`); along its first axis it is
  at column q the fold over the column's entries (`colMax_apply`); an add reduction along the first axis is at column q
  the sum of the column's entries (`colSum_apply`). An [a, 1] column broadcast to [a, b] reads, at (p, c), the
  column's entry p (`broadcastTo_a1_ab_apply`).
-/
import Idealize.ShloMosaic.Lib.ValueIdx
import Idealize.ShloMosaic.Lib.Pipeline.Value
import Idealize.ShloMosaic.PureOps.Ideal.Laws

namespace Cert.LibAxisReads

open Idealize.ShloMosaic Idealize.ShloMosaic.ValueIdx
open scoped BigOperators

/-- The f32 pattern of -∞ is the bottom element of the extended reals. -/
theorem ofBits_negInf_f32 : Ideal.ofBits .f32 0xFF800000#32 = (⊥ : EReal) := by simp [Ideal.ofBits, Ideal.ieee]

/-- An [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index a reduction along the second axis inserts over row p at coordinate n is (p, n). -/
theorem lift_row {a b : ℕ} (h : (⟨2, ![a, b]⟩ : Shape).Reduces [1] ⟨1, ![a]⟩) (p : Fin a) (n : Fin b) :
    h.lift (ix1 p) n = ix2 p n :=
  funext fun c => Fin.ext (by match c with | ⟨0, _⟩ => rfl | ⟨1, _⟩ => rfl)

/-- The source index a reduction along the first axis inserts over column q at coordinate n is (n, q). -/
theorem lift_col {a b : ℕ} (h : (⟨2, ![a, b]⟩ : Shape).Reduces [0] ⟨1, ![b]⟩) (q : Fin b) (n : Fin a) :
    h.lift (ix1 q) n = ix2 n q :=
  funext fun c => Fin.ext (by match c with | ⟨0, _⟩ => rfl | ⟨1, _⟩ => rfl)

/-- A maximum reduction along the second axis from -∞, at row p: the fold of `max` over the row's entries. -/
theorem rowMax_apply {a b : ℕ} (X : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ X 0xFF800000#32 h hφ hacc (ix1 p)
      = (Finset.univ : Finset (Fin b)).fold max (⊥ : EReal) (fun n => X (ix2 p n)) := by
  refine (Ideal.multiReduction_maximumf_single X _ h hφ hacc (ix1 p)).trans ?_
  show (Finset.univ : Finset (Fin b)).fold max (Ideal.ofBits .f32 0xFF800000#32) (fun n => X (h.lift (ix1 p) n)) = _
  rw [ofBits_negInf_f32]
  exact congrArg (fun f => Finset.fold max (⊥ : EReal) f (Finset.univ : Finset (Fin b)))
    (funext fun n => congrArg X (lift_row h p n))

/-- A maximum reduction along the first axis from -∞, at column q: the fold of `max` over the column's entries. -/
theorem colMax_apply {a b : ℕ} (X : FVec Ideal ⟨2, ![a, b]⟩ .f32) (h : (⟨2, ![a, b]⟩ : Shape).Reduces [0] ⟨1, ![b]⟩)
    (hφ : FKind.Formats .f32) (hacc : (0xFF800000#32 : BitVec 32) = FKind.maximumf.neutral .f32 hφ) (q : Fin b) :
    multiReduction .maximumf [0] ⟨1, ![b]⟩ X 0xFF800000#32 h hφ hacc (ix1 q)
      = (Finset.univ : Finset (Fin a)).fold max (⊥ : EReal) (fun n => X (ix2 n q)) := by
  refine (Ideal.multiReduction_maximumf_single X _ h hφ hacc (ix1 q)).trans ?_
  show (Finset.univ : Finset (Fin a)).fold max (Ideal.ofBits .f32 0xFF800000#32) (fun n => X (h.lift (ix1 q) n)) = _
  rw [ofBits_negInf_f32]
  exact congrArg (fun f => Finset.fold max (⊥ : EReal) f (Finset.univ : Finset (Fin a)))
    (funext fun n => congrArg X (lift_col h q n))

/-- An add reduction along the first axis, at column q: the sum of the column's entries. -/
theorem colSum_apply {a b : ℕ} (X : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (q : Fin b) :
    multiReduction .add [0] ⟨1, ![b]⟩ X 0x00000000#32 h hφ hacc (ix1 q) = ∑ n : Fin a, X (ix2 n q) := by
  refine (Ideal.multiReduction_add_single X _ h hφ hacc (ix1 q)).trans ?_
  show ∑ n : Fin a, X (h.lift (ix1 q) n) = _
  exact Finset.sum_congr rfl fun n _ => congrArg X (lift_col h q n)

end Cert.LibAxisReads
-- ==== Proof.LibUnitBlock.lean ====
/-
  A matrix carried as a [1, 1, a, b] array: the recast to [a, b] reads, at (p, q), the operand at (0, 0, p, q), and
  the recast of an [a, b] matrix to [1, 1, a, b] reads, at (u, v, p, q), the matrix at (p, q), whatever the two
  unit coordinates. General in the extents and the element type.
-/
import Idealize.ShloMosaic.Lib.ValueIdx
import Idealize.ShloMosaic.Lib.Pipeline.Value

namespace Cert.LibUnitBlock

open Idealize.ShloMosaic Idealize.ShloMosaic.ValueIdx

variable {α : Type}

/-- A [1, 1, a, b] array recast to [a, b] reads, at (p, q), the operand at (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] matrix recast to [1, 1, a, b] reads, at (u, v, p, q), the matrix at (p, q). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (p : Fin a) (q : Fin b) :
    shapeCast ⟨4, ![1, 1, a, b]⟩ x h (ix4 u v p q) = x (ix2 p q) :=
  shapeCast_apply x h _ _ (by
    have hu : u.val = 0 := by omega
    have hv : v.val = 0 := by omega
    rw [Shape.rowMajor_val_four, Shape.rowMajor_val_two]
    show p.val * b + q.val = ((u.val * 1 + v.val) * a + p.val) * b + q.val
    rw [hu, hv]
    simp only [Nat.zero_mul, Nat.zero_add])

end Cert.LibUnitBlock
-- ==== Proof.KernelBlock.lean ====
/-
  One grid point of the kernel, entry by entry. The body loads the point's row block x (128 × 512, carried as
  [1, 1, 128, 512]) and its column block a (512 × 512), and stores, at (b, k),

      (max_n x[b, n] + max_n a[n, k]) - (log (sum_n exp (a[n, k] - max_n a[n, k])) + max_n a[n, k])
        + log (sum_n exp (x[b, n] - max_n x[b, n]) * exp (a[n, k] - max_n a[n, k])):

  the first arrangement of the log-space product (`entryShifted`) of row b of x with column k of a. The two
  roundings of the matrix product's operands are the identity at the exact values, and the product into a zero
  accumulator is the plain sum over the contracted coordinate.
-/
import proofs.«180690_j59889023976041_1_alg».proof.Proof.Gen.KernelIdeal.Skeleton
import proofs.«180690_j59889023976041_1_alg».proof.Proof.LogSpace
import proofs.«180690_j59889023976041_1_alg».proof.Proof.LibColRow
import proofs.«180690_j59889023976041_1_alg».proof.Proof.LibAxisReads
import proofs.«180690_j59889023976041_1_alg».proof.Proof.LibUnitBlock
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx
open Cert.LogSpace Cert.LibAxisReads Cert.LibUnitBlock Cert.LibColRow
open scoped BigOperators

theorem exp_apply {s : Shape} (v : FVec Ideal s .f32) (i : s.Idx) : exp v i = Ideal.exp (v i) := rfl
theorem log_apply {s : Shape} (v : FVec Ideal s .f32) (i : s.Idx) : log v i = Ideal.log (v i) := rfl

/-- The row maximum as the body takes it, at row p. -/
theorem rowMax_block (X : FVec Ideal S128x512 .f32) (hφ : FTy.f32 = FTy.f32 ∨ FTy.f32 = FTy.bf16)
    (hacc : (0xFF800000#32 : BitVec 32) = 0xFF800000#32) (p : Fin 128) :
    multiReduction .maximumf [1] S128 X 0xFF800000#32 reduces_S128x512_S128 hφ hacc (ix1 p)
      = (Finset.univ : Finset (Fin 512)).fold max (⊥ : EReal) (fun n => X (ix2 p n)) :=
  rowMax_apply X _ hφ hacc p

/-- The column maximum as the body takes it, at column q. -/
theorem colMax_block (A : FVec Ideal S512x512 .f32) (hφ : FTy.f32 = FTy.f32 ∨ FTy.f32 = FTy.bf16)
    (hacc : (0xFF800000#32 : BitVec 32) = 0xFF800000#32) (q : Fin 512) :
    multiReduction .maximumf [0] S512 A 0xFF800000#32 reduces_S512x512_S512 hφ hacc (ix1 q)
      = (Finset.univ : Finset (Fin 512)).fold max (⊥ : EReal) (fun n => A (ix2 n q)) :=
  colMax_apply A _ hφ hacc q

/-- The column sum as the body takes it, at column q. -/
theorem colSum_block (A : FVec Ideal S512x512 .f32) (hφ : FTy.f32 = FTy.f32 ∨ FTy.f32 = FTy.bf16)
    (hacc : (0x00000000#32 : BitVec 32) = 0x00000000#32) (q : Fin 512) :
    multiReduction .add [0] S512 A 0x00000000#32 reduces_S512x512_S512 hφ hacc (ix1 q)
      = ∑ n : Fin 512, A (ix2 n q) :=
  colSum_apply A _ hφ hacc q

theorem lhs_block_0 (i : S128x512.Idx) (q : dot_S128x512_S512x512_S128x512_1_0_0_1_n_n.contr.Idx) :
    (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide),
    dif_pos (show (0 : Fin S128x512.rank) ∈ dot_S128x512_S512x512_S128x512_1_0_0_1_n_n.lhsNonContracting by decide)]
  rfl

theorem lhs_block_1 (i : S128x512.Idx) (q : dot_S128x512_S512x512_S128x512_1_0_0_1_n_n.contr.Idx) :
    (dot_S128x512_S512x512_S128x512_1_0_0_1_n_n.lhsIdx i q 1).val = (q ⟨0, by decide⟩).val :=
  dot_S128x512_S512x512_S128x512_1_0_0_1_n_n.lhsIdx_val_of_single rfl i q

theorem rhs_block_0 (i : S128x512.Idx) (q : dot_S128x512_S512x512_S128x512_1_0_0_1_n_n.contr.Idx) :
    (dot_S128x512_S512x512_S128x512_1_0_0_1_n_n.rhsIdx i q 0).val = (q ⟨0, by decide⟩).val :=
  dot_S128x512_S512x512_S128x512_1_0_0_1_n_n.rhsIdx_val_of_single rfl i q

theorem rhs_block_1 (i : S128x512.Idx) (q : dot_S128x512_S512x512_S128x512_1_0_0_1_n_n.contr.Idx) :
    (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide),
    dif_pos (show (1 : Fin S512x512.rank) ∈ dot_S128x512_S512x512_S128x512_1_0_0_1_n_n.rhsNonContracting by decide)]
  rfl

/-- The body's matrix product into the zero accumulator, at (b, k): the sum over the contracted coordinate. -/
theorem matmul_block (L : FVec Ideal S128x512 .bf16) (R : FVec Ideal S512x512 .bf16) (b : Fin 128) (k : Fin 512) :
    matmul dot_S128x512_S512x512_S128x512_1_0_0_1_n_n none L R (constant S128x512 .f32 0x00000000#32) (ix2 b k)
      = ∑ n : Fin 512, L (ix2 b n) * R (ix2 n k) := by
  simp only [matmul]
  rw [Ideal.matmul_constant_zero_apply,
    ← Equiv.sum_comp (ValueIdx.contrEquiv1 dot_S128x512_S512x512_S128x512_1_0_0_1_n_n 512 rfl rfl).symm]
  refine Finset.sum_congr rfl fun n _ => ?_
  have hn := ValueIdx.contrEquiv1_symm_val dot_S128x512_S512x512_S128x512_1_0_0_1_n_n 512 rfl rfl n
  have el : dot_S128x512_S512x512_S128x512_1_0_0_1_n_n.lhsIdx (ix2 b k)
      ((ValueIdx.contrEquiv1 dot_S128x512_S512x512_S128x512_1_0_0_1_n_n 512 rfl rfl).symm n) = ix2 b n :=
    funext fun a => Fin.ext (by
      match a with
      | ⟨0, _⟩ => exact lhs_block_0 _ _
      | ⟨1, _⟩ => exact (lhs_block_1 _ _).trans hn)
  have er : dot_S128x512_S512x512_S128x512_1_0_0_1_n_n.rhsIdx (ix2 b k)
      ((ValueIdx.contrEquiv1 dot_S128x512_S512x512_S128x512_1_0_0_1_n_n 512 rfl rfl).symm n) = ix2 n k :=
    funext fun a => Fin.ext (by
      match a with
      | ⟨0, _⟩ => exact (rhs_block_0 _ _).trans hn
      | ⟨1, _⟩ => exact rhs_block_1 _ _)
  rw [el, er]

/-- What the body stores at (b, k) of its output block, from the two blocks it loads: the first arrangement of the
    log-space product of row b of the row block with column k of the column block. -/
theorem pay_apply (v0 : Vec Ideal S1x1x128x512 .f32) (v2 : Vec Ideal S1x1x512x512 .f32) (u0 u1 : Fin 1) (b : Fin 128)
    (k : Fin 512) :
    k0_pay1 (F := Ideal) v0 v2 (ix4 u0 u1 b k)
      = entryShifted (fun n : Fin 512 => v0 (ix4 (0 : Fin 1) (0 : Fin 1) b n))
          (fun n : Fin 512 => v2 (ix4 (0 : Fin 1) (0 : Fin 1) n k)) := by
  unfold k0_pay1 entryShifted
  simp only [shapeCast_ab_11ab_apply, addf_apply, subf_apply, log_apply, exp_apply, truncf_apply,
    broadcastTo_a1_ab_apply, broadcastTo_1b_ab_apply, shapeCast_col_apply, shapeCast_a_1a_apply,
    matmul_block, shapeCast_11ab_ab_apply]
  rw [rowMax_block, colMax_block, colSum_block]
  simp only [subf_apply, exp_apply, broadcastTo_1b_ab_apply, shapeCast_a_1a_apply, shapeCast_11ab_ab_apply]
  rw [colMax_block]
  simp only [shapeCast_11ab_ab_apply]

end Cert.KernelIdeal.Block

end
-- ==== Proof.Spec.lean ====
/-
  The result both programs compute, as one function of the two argument arrays.

  x has shape [32, 8, 128, 512] and a has shape [32, 8, 512, 512]. For each leading pair (s, d) the result block is the
  log-space matrix product of the 128 × 512 matrix x[s, d] with the 512 × 512 matrix a[s, d], whose columns are first
  normalized in log space: at (s, d, b, k) it is the log-space product of the row x[s, d, b, ·] with the normalized column
  a[s, d, ·, k]. `logProduct` writes it in the first arrangement of `LogSpace` (the column's log-sum taken once, the
  shift added back), `logProductNormalized` in the second (the column normalized first). On arrays of real numbers the
  two are the same function.
-/
import proofs.«180690_j59889023976041_1_alg».proof.Proof.LogSpace
import Idealize.ShloMosaic.Lib.ValueIdx

noncomputable section

namespace Cert.Spec

open Idealize.ShloMosaic Idealize.ShloMosaic.ValueIdx Cert.LogSpace

/-- The first arrangement at (s, d, b, k): row b of x[s, d] against column k of a[s, d]. -/
def logProductAt (X : (⟨4, ![32, 8, 128, 512]⟩ : Shape).Idx → EReal) (A : (⟨4, ![32, 8, 512, 512]⟩ : Shape).Idx → EReal)
    (s : Fin 32) (d : Fin 8) (b : Fin 128) (k : Fin 512) : EReal :=
  entryShifted (fun n : Fin 512 => X (ix4 s d b n)) (fun n : Fin 512 => A (ix4 s d n k))

/-- The second arrangement at (s, d, b, k). -/
def logProductNormalizedAt (X : (⟨4, ![32, 8, 128, 512]⟩ : Shape).Idx → EReal)
    (A : (⟨4, ![32, 8, 512, 512]⟩ : Shape).Idx → EReal) (s : Fin 32) (d : Fin 8) (b : Fin 128) (k : Fin 512) : EReal :=
  entryNormalized (fun n : Fin 512 => X (ix4 s d b n)) (fun n : Fin 512 => A (ix4 s d n k))

/-- The result array in the first arrangement. -/
def logProduct (X : (⟨4, ![32, 8, 128, 512]⟩ : Shape).Idx → EReal) (A : (⟨4, ![32, 8, 512, 512]⟩ : Shape).Idx → EReal) :
    (⟨4, ![32, 8, 128, 512]⟩ : Shape).Idx → EReal :=
  fun i => logProductAt X A (i 0) (i 1) (i 2) (i 3)

/-- On arrays of real numbers the two arrangements agree at every entry. -/
theorem logProductNormalizedAt_eq (X : (⟨4, ![32, 8, 128, 512]⟩ : Shape).Idx → EReal)
    (A : (⟨4, ![32, 8, 512, 512]⟩ : Shape).Idx → EReal) (hX : ∀ i, ∃ r : ℝ, X i = (r : EReal))
    (hA : ∀ i, ∃ r : ℝ, A i = (r : EReal)) (s : Fin 32) (d : Fin 8) (b : Fin 128) (k : Fin 512) :
    logProductNormalizedAt X A s d b k = logProductAt X A s d b k :=
  entryNormalized_eq_entryShifted ⟨0, Finset.mem_univ _⟩ _ _ (fun n => hX _) (fun n => hA _)

end Cert.Spec

end
-- ==== Proof.KernelWhole.lean ====
/-
  The kernel's result array. Grid point t = (s, d) loads the row block x[s, d] and the column block a[s, d] and writes
  back the output block at (s, d); by `pay_apply` its entry (b, k) is the first arrangement of the log-space product of
  row x[s, d, b, ·] with column a[s, d, ·, k]. The 256 output blocks tile the result array, so after the run the array
  is `logProduct` of the two arguments, index by index.
-/
import proofs.«180690_j59889023976041_1_alg».proof.Proof.Gen.KernelIdeal.Value
import proofs.«180690_j59889023976041_1_alg».proof.Proof.KernelBlock
import proofs.«180690_j59889023976041_1_alg».proof.Proof.Spec
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe
open Idealize.SL.Sem Idealize.ShloMosaic.ValueIdx Cert.LogSpace Cert.Spec Cert.KernelIdeal.Block
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-- The three windows' block indices at every grid point: (s, d, 0, 0), with (s, d) the point's coordinates. -/
theorem block_index : ∀ t : Fin cfg0.N,
    (win0_0.index t (0 : Fin 4) = (grid0.coords t 0).val ∧ win0_0.index t (1 : Fin 4) = (grid0.coords t 1).val
      ∧ win0_0.index t (2 : Fin 4) = 0 ∧ win0_0.index t (3 : Fin 4) = 0)
    ∧ (win0_1.index t (0 : Fin 4) = (grid0.coords t 0).val ∧ win0_1.index t (1 : Fin 4) = (grid0.coords t 1).val
      ∧ win0_1.index t (2 : Fin 4) = 0 ∧ win0_1.index t (3 : Fin 4) = 0)
    ∧ (win0_2.index t (0 : Fin 4) = (grid0.coords t 0).val ∧ win0_2.index t (1 : Fin 4) = (grid0.coords t 1).val
      ∧ win0_2.index t (2 : Fin 4) = 0 ∧ win0_2.index t (3 : Fin 4) = 0) :=
  (by decide +kernel : ∀ t : Fin grid0.N, _)

/-- A grid point's coordinates from its position: s = t / 8 (mod 32), d = t (mod 8). -/
theorem coords_val (t : Fin cfg0.N) : (grid0.coords t 0).val = t.val / 8 % 32 ∧ (grid0.coords t 1).val = t.val / 1 % 8 :=
  ⟨rfl, rfl⟩

/-- The row block at point t, entry (b, n): the first argument at (s, d, b, n). -/
theorem rowBlock_apply (c : Dev nD) (t : Fin cfg0.N) (b : Fin 128) (n : Fin 512) :
    (iblk m c 0 t : Vec Ideal S1x1x128x512 .f32) (ix4 (0 : Fin 1) (0 : Fin 1) b n)
      = (m ((c : Thread nD τ).loc main_arg0) : S32x8x128x512.Idx → EReal) (ix4 (grid0.coords t 0) (grid0.coords t 1) b n) := by
  obtain ⟨⟨e0, e1, e2, e3⟩, -, -⟩ := block_index t
  unfold iblk
  rw [View.read_apply]
  show V m c main_arg0 _ = m (c.tc.loc main_arg0) _
  unfold V
  congr 1
  funext a
  apply Fin.ext
  match a with
  | ⟨0, _⟩ => show win0_0.index t 0 * 1 + 1 * 0 = (grid0.coords t 0).val; rw [e0]; omega
  | ⟨1, _⟩ => show win0_0.index t 1 * 1 + 1 * 0 = (grid0.coords t 1).val; rw [e1]; omega
  | ⟨2, _⟩ => show win0_0.index t 2 * 128 + 1 * b.val = b.val; rw [e2]; omega
  | ⟨3, _⟩ => show win0_0.index t 3 * 512 + 1 * n.val = n.val; rw [e3]; omega

/-- The column block at point t, entry (n, k): the second argument at (s, d, n, k). -/
theorem colBlock_apply (c : Dev nD) (t : Fin cfg0.N) (n k : Fin 512) :
    (iblk m c 1 t : Vec Ideal S1x1x512x512 .f32) (ix4 (0 : Fin 1) (0 : Fin 1) n k)
      = (m ((c : Thread nD τ).loc main_arg1) : S32x8x512x512.Idx → EReal) (ix4 (grid0.coords t 0) (grid0.coords t 1) n k) := by
  obtain ⟨-, ⟨e0, e1, e2, e3⟩, -⟩ := block_index t
  unfold iblk
  rw [View.read_apply]
  show V m c main_arg1 _ = m (c.tc.loc main_arg1) _
  unfold V
  congr 1
  funext a
  apply Fin.ext
  match a with
  | ⟨0, _⟩ => show win0_1.index t 0 * 1 + 1 * 0 = (grid0.coords t 0).val; rw [e0]; omega
  | ⟨1, _⟩ => show win0_1.index t 1 * 1 + 1 * 0 = (grid0.coords t 1).val; rw [e1]; omega
  | ⟨2, _⟩ => show win0_1.index t 2 * 512 + 1 * n.val = n.val; rw [e2]; omega
  | ⟨3, _⟩ => show win0_1.index t 3 * 512 + 1 * k.val = k.val; rw [e3]; omega

/-- The body's payload at an index j of the output block, from any two loaded blocks. -/
theorem pay_at (x0 : Vec Ideal S1x1x128x512 .f32) (x1 : Vec Ideal S1x1x512x512 .f32) (j : S1x1x128x512.Idx) :
    k0_pay1 (F := Ideal) x0 x1 j
      = entryShifted (fun n : Fin 512 => x0 (ix4 (0 : Fin 1) (0 : Fin 1) (j 2) n))
          (fun n : Fin 512 => x1 (ix4 (0 : Fin 1) (0 : Fin 1) n (j 3))) :=
  (congrArg (k0_pay1 (F := Ideal) x0 x1) (eq_ix4 j)).trans (pay_apply x0 x1 (j 0) (j 1) (j 2) (j 3))

/-- WHAT POINT t WRITES BACK is block t of `logProduct` of the two arguments. -/
theorem flushed_eq (c : Dev nD) (t : Fin cfg0.N) :
    (dats m 0 c).flushed 2 t = ((cfg0.win 2).blk t).view.read (Elt Ideal)
      (logProduct (m ((c : Thread nD τ).loc main_arg0)) (m ((c : Thread nD τ).loc main_arg1))) := by
  rw [Value.flushed2]
  unfold out0_2
  rw [View.canon_unit_zero hz]
  simp only [View.ld_unit_zero (S := S1x1x128x512) hz, View.ld_unit_zero (S := S1x1x512x512) hz]
  obtain ⟨-, -, ⟨e0, e1, e2, e3⟩⟩ := block_index t
  funext j
  show k0_pay1 (F := Ideal) (iblk m c 0 t) (iblk m c 1 t) j
    = logProduct (m ((c : Thread nD τ).loc main_arg0)) (m ((c : Thread nD τ).loc main_arg1)) (((cfg0.win 2).blk t).view.emb j)
  refine (pay_at (iblk m c 0 t) (iblk m c 1 t) j).trans ?_
  unfold logProduct logProductAt
  have hj0 : (j 0).val < 1 := (j 0).isLt
  have hj1 : (j 1).val < 1 := (j 1).isLt
  have hj2 : (j 2).val < 128 := (j 2).isLt
  have hj3 : (j 3).val < 512 := (j 3).isLt
  have h0 : ((((cfg0.win 2).blk t).view.emb j) 0).val = (grid0.coords t 0).val := by
    show win0_2.index t 0 * 1 + 1 * (j 0).val = _; rw [e0]; omega
  have h1 : ((((cfg0.win 2).blk t).view.emb j) 1).val = (grid0.coords t 1).val := by
    show win0_2.index t 1 * 1 + 1 * (j 1).val = _; rw [e1]; omega
  have h2 : ((((cfg0.win 2).blk t).view.emb j) 2).val = (j 2).val := by
    show win0_2.index t 2 * 128 + 1 * (j 2).val = _; rw [e2]; omega
  have h3 : ((((cfg0.win 2).blk t).view.emb j) 3).val = (j 3).val := by
    show win0_2.index t 3 * 512 + 1 * (j 3).val = _; rw [e3]; omega
  refine congrArg₂ entryShifted (funext fun n => ?_) (funext fun n => ?_)
  · refine (rowBlock_apply m c t (j 2) n).trans (congrArg _ (funext fun a => Fin.ext ?_))
    match a with
    | ⟨0, _⟩ => exact h0.symm
    | ⟨1, _⟩ => exact h1.symm
    | ⟨2, _⟩ => exact h2.symm
    | ⟨3, _⟩ => rfl
  · refine (colBlock_apply m c t n (j 3)).trans (congrArg _ (funext fun a => Fin.ext ?_))
    match a with
    | ⟨0, _⟩ => exact h0.symm
    | ⟨1, _⟩ => exact h1.symm
    | ⟨2, _⟩ => rfl
    | ⟨3, _⟩ => exact h3.symm

/-- An index of the result array is in point t's block iff each coordinate is in the block's range on its axis. -/
theorem mem_blk (t : Fin cfg0.N) (i : S32x8x128x512.Idx) :
    i ∈ ((cfg0.win 2).blk t).view.set ↔ ∀ a : Fin 4, win0_2.index t a * S1x1x128x512.size a ≤ (i a).val
      ∧ (i a).val < win0_2.index t a * S1x1x128x512.size a + S1x1x128x512.size a := by
  show i ∈ ((View.whole main_v0).slice (win0_2.rect t)).set ↔ _
  rw [View.set_slice_whole, Rect.mem_set_unit]
  exact Iff.rfl

/-- Every index (s, d, b, k) of the result array lies in the block of the point at position 8 s + d. -/
theorem covered (i : S32x8x128x512.Idx) :
    ∃ t : Fin cfg0.N, (cfg0.win 2).flush t = true ∧ i ∈ ((cfg0.win 2).blk t).view.set := by
  have hi0 : (i 0).val < 32 := (i 0).isLt
  have hi1 : (i 1).val < 8 := (i 1).isLt
  have hi2 : (i 2).val < 128 := (i 2).isLt
  have hi3 : (i 3).val < 512 := (i 3).isLt
  have hN : cfg0.N = 256 := N_0
  let t : Fin cfg0.N := ⟨(i 0).val * 8 + (i 1).val, by rw [hN]; omega⟩
  obtain ⟨-, -, ⟨e0, e1, e2, e3⟩⟩ := block_index t
  obtain ⟨c0, c1⟩ := coords_val t
  have ht : t.val = (i 0).val * 8 + (i 1).val := rfl
  refine ⟨t, flush0_2 t, ?_⟩
  rw [mem_blk]
  intro a
  match a with
  | ⟨0, _⟩ =>
    show win0_2.index t 0 * 1 ≤ (i 0).val ∧ (i 0).val < win0_2.index t 0 * 1 + 1
    rw [e0, c0, ht]; omega
  | ⟨1, _⟩ =>
    show win0_2.index t 1 * 1 ≤ (i 1).val ∧ (i 1).val < win0_2.index t 1 * 1 + 1
    rw [e1, c1, ht]; omega
  | ⟨2, _⟩ =>
    show win0_2.index t 2 * 128 ≤ (i 2).val ∧ (i 2).val < win0_2.index t 2 * 128 + 128
    rw [e2]; omega
  | ⟨3, _⟩ =>
    show win0_2.index t 3 * 512 ≤ (i 3).val ∧ (i 3).val < win0_2.index t 3 * 512 + 512
    rw [e3]; omega

/-- THE RESULT ARRAY after the run is `logProduct` of the two arguments. -/
theorem final (c : Dev nD) : (dats m 0 c).arrAt 2 cfg0.N
    = logProduct (m ((c : Thread nD τ).loc main_arg0)) (m ((c : Thread nD τ).loc main_arg1)) :=
  (dats m 0 c).arrAt_eq_of_cover 2 _ (fun t _ => flushed_eq m c t) covered

/-- The kernel's run: the result array at `logProduct` of the arguments, the arguments unchanged. -/
theorem run : θ_run defs (onTc (τ := τ) (main (F := Ideal))) ⟨m, fun _ => 0, ρ⟩ fun r => ∀ c : Dev nD,
      r.2.mem ((c : Thread nD τ).loc main_v0)
        = logProduct (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.ReferenceEntry.lean ====
/-
  The reference, entry by entry. Its operations are read one at a time down to the two arguments: at (s, d, b, k) its
  result is the log-space product of the row x[s, d, b, ·] with the column a[s, d, ·, k] normalized first — the second
  arrangement of `LogSpace` (`entryNormalized`). The column's statistics come first (its largest entry; the
  logarithm of its shifted exponential sum; the normalized column; the normalized column's largest entry), then the
  row's, then the contraction.
-/
import proofs.«180690_j59889023976041_1_alg».proof.Proof.ReferenceRead
import proofs.«180690_j59889023976041_1_alg».proof.Proof.Spec
import proofs.«180690_j59889023976041_1_alg».proof.Proof.LibAxisReads
import Idealize.ShloMosaic.Lib.ValueIdx
import Idealize.ShloMosaic.PureOps.Ideal.Laws

noncomputable section

namespace Cert.ReferenceIdeal.Entry

open Cert.ReferenceIdeal Cert.ReferenceIdeal.Gen Cert.ReferenceIdeal.ReadP Idealize.ShloMosaic Idealize.ShloMosaic.ValueIdx
open Cert.LogSpace Cert.Spec Cert.LibAxisReads
open scoped BigOperators

variable (x0 : (⟨S32x8x128x512, .f32⟩ : BufTy).Contents (Elt Ideal)) (x1 : (⟨S32x8x512x512, .f32⟩ : BufTy).Contents (Elt Ideal))
variable (s : Fin 32) (d : Fin 8) (b : Fin 128) (k n : Fin 512)

/-- A maximum over the third axis of a [32, 8, 512, 512] array from -∞, at (s, d, k): the fold of `max` over the
    column's entries. -/
theorem colMax_read (Y : S32x8x512x512.Idx → EReal) :
    Host.reduce (FloatOps.maximumf (F := Ideal) (φ := .f32)) Y (constant (F := Ideal) S_ .f32 0xFF800000#32)
        reducesTo_S32x8x512x512_S32x8x512_d2 h_S_ (ix3 s d k)
      = (Finset.univ : Finset (Fin 512)).fold max (⊥ : EReal) (fun n => Y (ix4 s d n k)) := by
  have h : S32x8x512x512.Reduces [2] S32x8x512 := by decide
  refine (Host.reduce_eq_fold_single _ Y _ reducesTo_S32x8x512x512_S32x8x512_d2 h h_S_ (ix3 s d k)).trans ?_
  show (Finset.univ : Finset (Fin 512)).fold max (Ideal.ofBits .f32 0xFF800000#32) (fun n => Y (h.lift (ix3 s d k) n)) = _
  rw [ofBits_negInf_f32]
  exact congrArg (fun f => Finset.fold max (⊥ : EReal) f (Finset.univ : Finset (Fin 512)))
    (funext fun n => congrArg Y (funext fun a => Fin.ext (by
      match a with | ⟨0, _⟩ => rfl | ⟨1, _⟩ => rfl | ⟨2, _⟩ => rfl | ⟨3, _⟩ => rfl)))

/-- A maximum over the last axis of a [32, 8, 128, 512] array from -∞, at (s, d, b): the fold over the row's entries. -/
theorem rowMax_read (Y : S32x8x128x512.Idx → EReal) :
    Host.reduce (FloatOps.maximumf (F := Ideal) (φ := .f32)) Y (constant (F := Ideal) S_ .f32 0xFF800000#32)
        reducesTo_S32x8x128x512_S32x8x128_d3 h_S_ (ix3 s d b)
      = (Finset.univ : Finset (Fin 512)).fold max (⊥ : EReal) (fun n => Y (ix4 s d b n)) := by
  have h : S32x8x128x512.Reduces [3] S32x8x128 := by decide
  refine (Host.reduce_eq_fold_single _ Y _ reducesTo_S32x8x128x512_S32x8x128_d3 h h_S_ (ix3 s d b)).trans ?_
  show (Finset.univ : Finset (Fin 512)).fold max (Ideal.ofBits .f32 0xFF800000#32) (fun n => Y (h.lift (ix3 s d b) n)) = _
  rw [ofBits_negInf_f32]
  exact congrArg (fun f => Finset.fold max (⊥ : EReal) f (Finset.univ : Finset (Fin 512)))
    (funext fun n => congrArg Y (funext fun a => Fin.ext (by
      match a with | ⟨0, _⟩ => rfl | ⟨1, _⟩ => rfl | ⟨2, _⟩ => rfl | ⟨3, _⟩ => rfl)))

/-- The column a[s, d, ·, k]. -/
abbrev col : Fin 512 → EReal := fun n => x1 (ix4 s d n k)
/-- The row x[s, d, b, ·]. -/
abbrev row : Fin 512 → EReal := fun n => x0 (ix4 s d b n)

/-! ## The operations' index maps at an index given by its coordinates -/

theorem i_c7 : idx_main_call0_v7 (ix3 s d k) n = ix4 s d n k :=
  funext fun a => Fin.ext (by match a with | ⟨0, _⟩ => rfl | ⟨1, _⟩ => rfl | ⟨2, _⟩ => rfl | ⟨3, _⟩ => rfl)
theorem i_c10 : idx_main_call0_v10 (ix4 s d n k) = ix4 s d (0 : Fin 1) k :=
  funext fun a => Fin.ext (by match a with | ⟨0, _⟩ => rfl | ⟨1, _⟩ => rfl | ⟨2, _⟩ => rfl | ⟨3, _⟩ => rfl)
theorem i_c8 (u : Fin 1) : idx_main_call0_v8 (ix4 s d u k) = ix3 s d k :=
  funext fun a => Fin.ext (by match a with | ⟨0, _⟩ => rfl | ⟨1, _⟩ => rfl | ⟨2, _⟩ => rfl)
theorem i_c4 : idx_main_call0_v4 (ix4 s d n k) = ix4 s d (0 : Fin 1) k :=
  funext fun a => Fin.ext (by match a with | ⟨0, _⟩ => rfl | ⟨1, _⟩ => rfl | ⟨2, _⟩ => rfl | ⟨3, _⟩ => rfl)
theorem i_c3 (u : Fin 1) : idx_main_call0_v3 (ix4 s d u k) = ix3 s d k :=
  funext fun a => Fin.ext (by match a with | ⟨0, _⟩ => rfl | ⟨1, _⟩ => rfl | ⟨2, _⟩ => rfl)
theorem i_4 (u : Fin 1) : idx_main_v4 (ix4 s d u k) = ix3 s d k :=
  funext fun a => Fin.ext (by match a with | ⟨0, _⟩ => rfl | ⟨1, _⟩ => rfl | ⟨2, _⟩ => rfl)
theorem i_8 : idx_main_v8 (ix4 s d n k) = ix4 s d (0 : Fin 1) k :=
  funext fun a => Fin.ext (by match a with | ⟨0, _⟩ => rfl | ⟨1, _⟩ => rfl | ⟨2, _⟩ => rfl | ⟨3, _⟩ => rfl)
theorem i_13 : idx_main_v13 (ix4 s d b k) = ix4 s d (0 : Fin 1) k :=
  funext fun a => Fin.ext (by match a with | ⟨0, _⟩ => rfl | ⟨1, _⟩ => rfl | ⟨2, _⟩ => rfl | ⟨3, _⟩ => rfl)
theorem i_2 (u : Fin 1) : idx_main_v2 (ix4 s d b u) = ix3 s d b :=
  funext fun a => Fin.ext (by match a with | ⟨0, _⟩ => rfl | ⟨1, _⟩ => rfl | ⟨2, _⟩ => rfl)
theorem i_5 : idx_main_v5 (ix4 s d b n) = ix4 s d b (0 : Fin 1) :=
  funext fun a => Fin.ext (by match a with | ⟨0, _⟩ => rfl | ⟨1, _⟩ => rfl | ⟨2, _⟩ => rfl | ⟨3, _⟩ => rfl)
theorem i_12 : idx_main_v12 (ix4 s d b k) = ix4 s d b (0 : Fin 1) :=
  funext fun a => Fin.ext (by match a with | ⟨0, _⟩ => rfl | ⟨1, _⟩ => rfl | ⟨2, _⟩ => rfl | ⟨3, _⟩ => rfl)
theorem l_11 : lidx_main_v11 (ix4 s d b k) n = ix4 s d b n :=
  funext fun a => Fin.ext (by match a with | ⟨0, _⟩ => rfl | ⟨1, _⟩ => rfl | ⟨2, _⟩ => rfl | ⟨3, _⟩ => rfl)
theorem r_11 : ridx_main_v11 (ix4 s d b k) n = ix4 s d n k :=
  funext fun a => Fin.ext (by match a with | ⟨0, _⟩ => rfl | ⟨1, _⟩ => rfl | ⟨2, _⟩ => rfl | ⟨3, _⟩ => rfl)

/-! ## The column's statistics -/

theorem colMax0 : val_main_call0_v0 (F := Ideal) x1 (ix3 s d k) = Finset.univ.fold max ⊥ (col x1 s d k) :=
  colMax_read s d k x1

theorem colMax2 : val_main_call0_v2 (F := Ideal) x1 (ix3 s d k) = Finset.univ.fold max ⊥ (col x1 s d k) := by
  rw [val_main_call0_v2_apply, val_main_call0_v1_apply, val_main_call0_cst_0_apply, colMax0]
  show max (Ideal.ofBits .f32 0xFF800000#32) _ = _
  rw [ofBits_negInf_f32, max_bot_left]

theorem colMax4 : val_main_call0_v4 (F := Ideal) x1 (ix4 s d n k) = Finset.univ.fold max ⊥ (col x1 s d k) := by
  rw [val_main_call0_v4_apply, i_c4, val_main_call0_v3_apply, i_c3, colMax2]

theorem shifted5 : val_main_call0_v5 (F := Ideal) x1 (ix4 s d n k)
    = x1 (ix4 s d n k) - Finset.univ.fold max ⊥ (col x1 s d k) := by
  rw [val_main_call0_v5_apply, colMax4]; rfl

theorem expSum7 : val_main_call0_v7 (F := Ideal) x1 (ix3 s d k)
    = ∑ j : Fin 512, Ideal.exp (col x1 s d k j - Finset.univ.fold max ⊥ (col x1 s d k)) := by
  rw [val_main_call0_v7_apply, val_main_call0_cst_1_apply]
  show Ideal.ofBits .f32 0x00000000#32 + _ = _
  rw [Ideal.ofBits_zero_f32, zero_add]
  refine Finset.sum_congr rfl fun j _ => ?_
  rw [val_main_call0_v6_apply, i_c7, shifted5]; rfl

theorem logSum10 : val_main_call0_v10 (F := Ideal) x1 (ix4 s d n k)
    = Ideal.log (∑ j : Fin 512, Ideal.exp (col x1 s d k j - Finset.univ.fold max ⊥ (col x1 s d k))) := by
  rw [val_main_call0_v10_apply, i_c10, val_main_call0_v9_apply, val_main_call0_v8_apply, i_c8, expSum7]; rfl

/-- The function's result is the normalized column. -/
theorem normalized0 : val_main_v0 (F := Ideal) x1 (ix4 s d n k) = normalizedCol (col x1 s d k) n := by
  rw [val_main_v0_apply, shifted5, logSum10]; rfl

theorem normMax3 : val_main_v3 (F := Ideal) x1 (ix3 s d k) = Finset.univ.fold max ⊥ (normalizedCol (col x1 s d k)) := by
  refine (colMax_read s d k (val_main_v0 (F := Ideal) x1)).trans ?_
  exact congrArg (fun f => Finset.fold max (⊥ : EReal) f (Finset.univ : Finset (Fin 512)))
    (funext fun j => normalized0 x1 s d k j)

theorem normMax4 (u : Fin 1) : val_main_v4 (F := Ideal) x1 (ix4 s d u k)
    = Finset.univ.fold max ⊥ (normalizedCol (col x1 s d k)) := by
  rw [val_main_v4_apply, i_4, normMax3]

theorem colFactor10 : val_main_v10 (F := Ideal) x1 (ix4 s d n k)
    = Ideal.exp (normalizedCol (col x1 s d k) n - Finset.univ.fold max ⊥ (normalizedCol (col x1 s d k))) := by
  rw [val_main_v10_apply, val_main_v9_apply, normalized0, val_main_v8_apply, i_8, normMax4]; rfl

/-! ## The row's statistics -/

theorem rowMax2 (u : Fin 1) : val_main_v2 (F := Ideal) x0 (ix4 s d b u) = Finset.univ.fold max ⊥ (row x0 s d b) := by
  rw [val_main_v2_apply, i_2]
  exact rowMax_read s d b x0

theorem rowFactor7 : val_main_v7 (F := Ideal) x0 (ix4 s d b n)
    = Ideal.exp (row x0 s d b n - Finset.univ.fold max ⊥ (row x0 s d b)) := by
  rw [val_main_v7_apply, val_main_v6_apply, val_main_v5_apply, i_5, rowMax2]; rfl

/-! ## The result -/

/-- The reference's result at (s, d, b, k) is the second arrangement of the log-space product. -/
theorem result_apply : val_main_v16 (F := Ideal) x0 x1 (ix4 s d b k) = logProductNormalizedAt x0 x1 s d b k := by
  rw [val_main_v16_apply, val_main_v14_apply, val_main_v15_apply, val_main_v11_apply, val_main_v12_apply, i_12,
    val_main_v13_apply, i_13, rowMax2, normMax4]
  simp only [l_11, r_11, rowFactor7, colFactor10]
  rfl

/-- On arguments of real numbers the reference's result array is `logProduct` of them: entry by entry the second
    arrangement, which on real numbers is the first. -/
theorem result_eq (hX : ∀ i, ∃ r : ℝ, x0 i = (r : EReal)) (hA : ∀ i, ∃ r : ℝ, x1 i = (r : EReal)) :
    val_main_v16 (F := Ideal) x0 x1 = logProduct x0 x1 :=
  funext fun i => (congrArg (val_main_v16 (F := Ideal) x0 x1) (eq_ix4 i)).trans
    ((result_apply x0 x1 (i 0) (i 1) (i 2) (i 3)).trans (logProductNormalizedAt_eq x0 x1 hX hA (i 0) (i 1) (i 2) (i 3)))

end Cert.ReferenceIdeal.Entry

end
-- ==== Proof.FiniteInputs.lean ====
/-
  From the precondition to real numbers. The precondition says that every entry of each argument has absolute value
  below +∞ (two `all`-reductions joined by `and`, each equal to 1). An extended real whose absolute value is below +∞
  is a real number; so under the precondition every entry of both arguments is a real number.
-/
import proofs.«180690_j59889023976041_1_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs

instance : Subsingleton S_.Idx := ⟨fun _ _ => funext fun d => d.elim0⟩

/-- An extended real whose absolute value is below +∞ is a real number. -/
theorem isReal_of_abs_lt_top (x : EReal) (h : max x (-x) < ⊤) : ∃ r : ℝ, x = (r : EReal) := by
  induction x using EReal.rec with
  | bot => simp at h
  | coe r => exact ⟨r, rfl⟩
  | top => simp at h

/-- The precondition's test of one entry, passed: the entry is a real number. -/
theorem isReal_of_test (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  refine isReal_of_abs_lt_top x ?_
  by_contra hn
  unfold Ideal.cmp at h
  simp [hn] at h

/-- Under the precondition every entry of both arguments is a real number. -/
theorem isReal_of_pre [Facts] (x : FVec Ideal S32x8x128x512 .f32) (a : FVec Ideal S32x8x512x512 .f32)
    (h : fn (F := Ideal) x a = fun _ => 1#1) :
    (∀ i, ∃ r : ℝ, x i = (r : EReal)) ∧ (∀ i, ∃ r : ℝ, a i = (r : EReal)) := by
  have h0 := congrFun h ValueIdx.ix0
  unfold fn at h0
  dsimp only at h0
  obtain ⟨h1, h2⟩ := IntOp.andi_eq_one.1 h0
  exact ⟨fun i => isReal_of_test (x i) (Host.reduce_andi_all _ _ _ _ ValueIdx.ix0 h1 i),
    fun i => isReal_of_test (a i) (Host.reduce_andi_all _ _ _ _ ValueIdx.ix0 h2 i)⟩

end Cert.FiniteInputs

end
-- ==== Proof.lean ====
/-
  The kernel against its reference: the log-space product of x[s, d] (128 × 512) with the column-normalized a[s, d]
  (512 × 512), for each of the 32 × 8 leading pairs (s, d).

  The reference normalizes each column of a in log space (log-softmax along the contracted axis), w = (a - max a) - L with
  L = log (sum exp (a - max a)), and then forms  max x + max w + log (sum exp (x - max x) * exp (w - max w)).
  The kernel never forms w: per grid point (s, d) it computes  (max x + max a) - (L + max a) + log (sum exp (x - max x) * exp (a - max a)).
  On real numbers the two agree: max (a - max a) = 0, hence max w = -L and w - max w = a - max a. The step needs the
  inputs finite (subtraction does not cancel at the infinities), which is the precondition.

  The modules: `LogSpace` (the two arrangements of one entry and their equality on real families), `Spec` (the result
  array as one function of the arguments), `KernelBlock` (what one grid point stores, entry by entry), `KernelWhole`
  (the 256 blocks tile the result array), `ReferenceEntry` (the reference's operations read down to the arguments),
  `FiniteInputs` (the precondition makes every entry a real number). The roundings to bf16 ahead of the kernel's matrix
  product are the identity at the exact values, and nothing else was rewritten, so the idealization's ledger is empty.
-/
import proofs.«180690_j59889023976041_1_alg».proof.Defs
import proofs.«180690_j59889023976041_1_alg».proof.Proof.Gen.Kernel
import proofs.«180690_j59889023976041_1_alg».proof.Proof.Gen.Kernel.Skeleton
import proofs.«180690_j59889023976041_1_alg».proof.Proof.Gen.Kernel.Launch
import proofs.«180690_j59889023976041_1_alg».proof.Proof.Gen.Kernel.Points
import proofs.«180690_j59889023976041_1_alg».proof.Proof.Gen.Kernel.Frame
import proofs.«180690_j59889023976041_1_alg».proof.Proof.Gen.KernelIdeal
import proofs.«180690_j59889023976041_1_alg».proof.Proof.Gen.KernelIdeal.Skeleton
import proofs.«180690_j59889023976041_1_alg».proof.Proof.Gen.KernelIdeal.Launch
import proofs.«180690_j59889023976041_1_alg».proof.Proof.Gen.KernelIdeal.Points
import proofs.«180690_j59889023976041_1_alg».proof.Proof.Gen.KernelIdeal.Frame
import proofs.«180690_j59889023976041_1_alg».proof.Proof.Gen.KernelIdeal.Value
import proofs.«180690_j59889023976041_1_alg».proof.Proof.Gen.ReferenceIdeal
import proofs.«180690_j59889023976041_1_alg».proof.Proof.Gen.Pre_finite_inputs
import proofs.«180690_j59889023976041_1_alg».proof.Proof.KernelWhole
import proofs.«180690_j59889023976041_1_alg».proof.Proof.ReferenceEntry
import proofs.«180690_j59889023976041_1_alg».proof.Proof.FiniteInputs
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Nothing was rewritten on the way to the exact values. -/
theorem preserves : Cert.preserves_Kernel_KernelIdeal := trivial

/-- From memories that agree on the arguments both programs end with the result array at `logProduct` of the arguments:
    the kernel block by block, the reference through its operations and the equality of the two arrangements on the real
    numbers the precondition provides. -/
theorem algebraic : Cert.algebraic_KernelIdeal_ReferenceIdeal := by
  intro m ρ m' ρ' hpre hagree
  refine ⟨fun c => Cert.Spec.logProduct (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨hX, hA⟩ := Cert.FiniteInputs.isReal_of_pre _ _ (hpre c)
  rw [Cert.ReferenceIdeal.ReadP.val_main_v16_eq, (hagree c).1, (hagree c).2]
  exact Cert.ReferenceIdeal.Entry.result_eq _ _ hX hA

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
